-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x384x384 : Shape := ⟨4, ![64, 3, 384, 384]⟩
abbrev S21x21 : Shape := ⟨2, ![21, 21]⟩
abbrev S_ : Shape := ⟨0, ![]⟩

class Facts : Prop where
  bcast_S_S64x3x384x384 : S_.BroadcastsInDim S64x3x384x384 (![] : Fin 0 → Fin S64x3x384x384.rank)
  reducesTo_S64x3x384x384_S_d0_1_2_3 : S64x3x384x384.ReducesTo [0, 1, 2, 3] S_
  h_S_ : 0 < S_.numel

variable [Facts]

def fn {F : FTy → Type} [FloatOps F] (main_arg0 : FVec F S64x3x384x384 .f32) (main_arg1 : IVec S21x21 32) : IVec S_ 1 :=
  let main_v0 : FVec F S64x3x384x384 .f32 := Host.absf main_arg0
  let main_cst : FVec F S_ .f32 := constant S_ .f32 0x7F800000#32
  let main_v1 : FVec F S64x3x384x384 .f32 := broadcastInDim S64x3x384x384 ![] bcast_S_S64x3x384x384 main_cst
  let main_v2 : IVec S64x3x384x384 1 := cmpf .olt main_v0 main_v1
  let main_c : IVec S_ 1 := constantI S_ 1 1#1
  let main_v3 : IVec S_ 1 := (fun x v => Host.reduce IntOp.andi x v reducesTo_S64x3x384x384_S_d0_1_2_3 h_S_) main_v2 main_c
  main_v3
-- ==== Kernel.lean ====
abbrev S64x3x384x384 : Shape := ⟨4, ![64, 3, 384, 384]⟩
abbrev S21x21 : Shape := ⟨2, ![21, 21]⟩
abbrev S21 : Shape := ⟨1, ![21]⟩
abbrev S21x1 : Shape := ⟨2, ![21, 1]⟩
abbrev S_ : Shape := ⟨0, ![]⟩
abbrev S12 : Shape := ⟨1, ![12]⟩
abbrev S1x12 : Shape := ⟨2, ![1, 12]⟩
abbrev S21x12 : Shape := ⟨2, ![21, 12]⟩
abbrev S252 : Shape := ⟨1, ![252]⟩
abbrev S21x12x21 : Shape := ⟨3, ![21, 12, 21]⟩
abbrev S252x21 : Shape := ⟨2, ![252, 21]⟩
abbrev S252x21x12 : Shape := ⟨3, ![252, 21, 12]⟩
abbrev S252x252 : Shape := ⟨2, ![252, 252]⟩
abbrev S384x384 : Shape := ⟨2, ![384, 384]⟩
abbrev S252x1 : Shape := ⟨2, ![252, 1]⟩
abbrev S1x252 : Shape := ⟨2, ![1, 252]⟩
abbrev S252x252x1 : Shape := ⟨3, ![252, 252, 1]⟩
abbrev S252x252x2 : Shape := ⟨3, ![252, 252, 2]⟩
abbrev S192x384x384 : Shape := ⟨3, ![192, 384, 384]⟩
abbrev S16x384x384 : Shape := ⟨3, ![16, 384, 384]⟩
abbrev S1x384x384 : Shape := ⟨3, ![1, 384, 384]⟩

abbrev nBuf : Space → Nat
  | .hbm => 62
  | .vmem => 5
  | .smem => 0
  | _ => 0

abbrev bufTy : (tb : Table) → Fin (tcTables nBuf tb) → BufTy
  | .hbm, ⟨0, _⟩ => ⟨S64x3x384x384, .f32⟩
  | .hbm, ⟨1, _⟩ => ⟨S21x21, .i32⟩
  | .hbm, ⟨2, _⟩ => ⟨S21, .i32⟩
  | .hbm, ⟨3, _⟩ => ⟨S21x1, .i32⟩
  | .hbm, ⟨4, _⟩ => ⟨S_, .i32⟩
  | .hbm, ⟨5, _⟩ => ⟨S21x1, .i32⟩
  | .hbm, ⟨6, _⟩ => ⟨S21x1, .i32⟩
  | .hbm, ⟨7, _⟩ => ⟨S_, .i32⟩
  | .hbm, ⟨8, _⟩ => ⟨S21x1, .i32⟩
  | .hbm, ⟨9, _⟩ => ⟨S21x1, .i32⟩
  | .hbm, ⟨10, _⟩ => ⟨S12, .i32⟩
  | .hbm, ⟨11, _⟩ => ⟨S1x12, .i32⟩
  | .hbm, ⟨12, _⟩ => ⟨S21x12, .i32⟩
  | .hbm, ⟨13, _⟩ => ⟨S21x12, .i32⟩
  | .hbm, ⟨14, _⟩ => ⟨S21x12, .i32⟩
  | .hbm, ⟨15, _⟩ => ⟨S252, .i32⟩
  | .hbm, ⟨16, _⟩ => ⟨S21, .i32⟩
  | .hbm, ⟨17, _⟩ => ⟨S21x1, .i32⟩
  | .hbm, ⟨18, _⟩ => ⟨S_, .i32⟩
  | .hbm, ⟨19, _⟩ => ⟨S21x1, .i32⟩
  | .hbm, ⟨20, _⟩ => ⟨S21x1, .i32⟩
  | .hbm, ⟨21, _⟩ => ⟨S_, .i32⟩
  | .hbm, ⟨22, _⟩ => ⟨S21x1, .i32⟩
  | .hbm, ⟨23, _⟩ => ⟨S21x1, .i32⟩
  | .hbm, ⟨24, _⟩ => ⟨S12, .i32⟩
  | .hbm, ⟨25, _⟩ => ⟨S1x12, .i32⟩
  | .hbm, ⟨26, _⟩ => ⟨S21x12, .i32⟩
  | .hbm, ⟨27, _⟩ => ⟨S21x12, .i32⟩
  | .hbm, ⟨28, _⟩ => ⟨S21x12, .i32⟩
  | .hbm, ⟨29, _⟩ => ⟨S252, .i32⟩
  | .hbm, ⟨30, _⟩ => ⟨S21x21, .f32⟩
  | .hbm, ⟨31, _⟩ => ⟨S21x12x21, .f32⟩
  | .hbm, ⟨32, _⟩ => ⟨S252x21, .f32⟩
  | .hbm, ⟨33, _⟩ => ⟨S252x21x12, .f32⟩
  | .hbm, ⟨34, _⟩ => ⟨S252x252, .f32⟩
  | .hbm, ⟨35, _⟩ => ⟨S_, .f32⟩
  | .hbm, ⟨36, _⟩ => ⟨S384x384, .f32⟩
  | .hbm, ⟨37, _⟩ => ⟨S252x1, .i32⟩
  | .hbm, ⟨38, _⟩ => ⟨S1x252, .i32⟩
  | .hbm, ⟨39, _⟩ => ⟨S_, .i32⟩
  | .hbm, ⟨40, _⟩ => ⟨S252x1, .i32⟩
  | .hbm, ⟨41, _⟩ => ⟨S252x1, .i1⟩
  | .hbm, ⟨42, _⟩ => ⟨S_, .i32⟩
  | .hbm, ⟨43, _⟩ => ⟨S252x1, .i32⟩
  | .hbm, ⟨44, _⟩ => ⟨S252x1, .i32⟩
  | .hbm, ⟨45, _⟩ => ⟨S252x1, .i32⟩
  | .hbm, ⟨46, _⟩ => ⟨S_, .i32⟩
  | .hbm, ⟨47, _⟩ => ⟨S1x252, .i32⟩
  | .hbm, ⟨48, _⟩ => ⟨S1x252, .i1⟩
  | .hbm, ⟨49, _⟩ => ⟨S_, .i32⟩
  | .hbm, ⟨50, _⟩ => ⟨S1x252, .i32⟩
  | .hbm, ⟨51, _⟩ => ⟨S1x252, .i32⟩
  | .hbm, ⟨52, _⟩ => ⟨S1x252, .i32⟩
  | .hbm, ⟨53, _⟩ => ⟨S252x252, .i32⟩
  | .hbm, ⟨54, _⟩ => ⟨S252x252, .i32⟩
  | .hbm, ⟨55, _⟩ => ⟨S252x252x1, .i32⟩
  | .hbm, ⟨56, _⟩ => ⟨S252x252x1, .i32⟩
  | .hbm, ⟨57, _⟩ => ⟨S252x252x2, .i32⟩
  | .hbm, ⟨58, _⟩ => ⟨S384x384, .f32⟩
  | .hbm, ⟨59, _⟩ => ⟨S192x384x384, .f32⟩
  | .hbm, ⟨60, _⟩ => ⟨S192x384x384, .f32⟩
  | .hbm, ⟨61, _⟩ => ⟨S64x3x384x384, .f32⟩
  | .local _ .vmem, ⟨0, _⟩ => ⟨S16x384x384, .f32⟩
  | .local _ .vmem, ⟨1, _⟩ => ⟨S16x384x384, .f32⟩
  | .local _ .vmem, ⟨2, _⟩ => ⟨S384x384, .f32⟩
  | .local _ .vmem, ⟨3, _⟩ => ⟨S16x384x384, .f32⟩
  | .local _ .vmem, ⟨4, _⟩ => ⟨S16x384x384, .f32⟩
  | _, _ => ⟨S64x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_5 : Ref sig .tc := ⟨.hbm, 46, rfl⟩
abbrev main_v37 : Ref sig .tc := ⟨.hbm, 47, rfl⟩
abbrev main_v38 : Ref sig .tc := ⟨.hbm, 48, rfl⟩
abbrev main_c_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S21_S21x1_0 : S21.BroadcastsInDim S21x1 (![0] : Fin 1 → Fin S21x1.rank)
  bcast_S_S21x1 : S_.BroadcastsInDim S21x1 (![] : Fin 0 → Fin S21x1.rank)
  bcast_S12_S1x12_1 : S12.BroadcastsInDim S1x12 (![1] : Fin 1 → Fin S1x12.rank)
  bcast_S21x1_S21x12_0_1 : S21x1.BroadcastsInDim S21x12 (![0, 1] : Fin 2 → Fin S21x12.rank)
  bcast_S1x12_S21x12_0_1 : S1x12.BroadcastsInDim S21x12 (![0, 1] : Fin 2 → Fin S21x12.rank)
  shapeCasts_S21x12_S252 : S21x12.ShapeCasts S252
  bcast_S21x21_S21x12x21_0_2 : S21x21.BroadcastsInDim S21x12x21 (![0, 2] : Fin 2 → Fin S21x12x21.rank)
  shapeCasts_S21x12x21_S252x21 : S21x12x21.ShapeCasts S252x21
  bcast_S252x21_S252x21x12_0_1 : S252x21.BroadcastsInDim S252x21x12 (![0, 1] : Fin 2 → Fin S252x21x12.rank)
  shapeCasts_S252x21x12_S252x252 : S252x21x12.ShapeCasts S252x252
  bcast_S_S384x384 : S_.BroadcastsInDim S384x384 (![] : Fin 0 → Fin S384x384.rank)
  bcast_S252_S252x1_0 : S252.BroadcastsInDim S252x1 (![0] : Fin 1 → Fin S252x1.rank)
  bcast_S252_S1x252_1 : S252.BroadcastsInDim S1x252 (![1] : Fin 1 → Fin S1x252.rank)
  bcast_S_S252x1 : S_.BroadcastsInDim S252x1 (![] : Fin 0 → Fin S252x1.rank)
  bcast_S_S1x252 : S_.BroadcastsInDim S1x252 (![] : Fin 0 → Fin S1x252.rank)
  bcast_S252x1_S252x252_0_1 : S252x1.BroadcastsInDim S252x252 (![0, 1] : Fin 2 → Fin S252x252.rank)
  bcast_S1x252_S252x252_0_1 : S1x252.BroadcastsInDim S252x252 (![0, 1] : Fin 2 → Fin S252x252.rank)
  bcast_S252x252_S252x252x1_0_1 : S252x252.BroadcastsInDim S252x252x1 (![0, 1] : Fin 2 → Fin S252x252x1.rank)
  concatenates_S252x252x1_S252x252x1_S252x252x2_d2 : Shape.Concatenates [S252x252x1, S252x252x1] S252x252x2 2
  shapeCasts_S64x3x384x384_S192x384x384 : S64x3x384x384.ShapeCasts S192x384x384
  inb_S16x384x384_S16x384x384_0_0_0 : ∀ a, (![0, 0, 0] : Fin 3 → Nat) a + S16x384x384.size a ≤ S16x384x384.size a
  h_S16x384x384 : 0 < S16x384x384.numel
  shapeCasts_S16x384x384_S16x384x384 : S16x384x384.ShapeCasts S16x384x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  shapeCasts_S384x384_S1x384x384 : S384x384.ShapeCasts S1x384x384
  broadcasts_S1x384x384_S16x384x384 : S1x384x384.Broadcasts S16x384x384
  shapeCasts_S192x384x384_S64x3x384x384 : S192x384x384.ShapeCasts S64x3x384x384
  scatter_S384x384_S252x252x2_S252x252_n_01_01_2_wf : ScatterDims.WF S384x384 S252x252x2 S252x252 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x384x384.size a ≤ S192x384x384.size a
  hwx0_0 : ∀ i : grid0.Coords, EltTy.bits .f32 = 32 ∨ (Rect.block (s := S192x384x384) S16x384x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x384x384.size a ≤ S192x384x384.size a
  hwx0_2 : ∀ i : grid0.Coords, EltTy.bits .f32 = 32 ∨ (Rect.block (s := S192x384x384) S16x384x384.size (cc0_transform_2 i) (hinb0_2 i)).WholeWords (EltTy.packing .f32)

variable [Facts₀]

def scatter_S384x384_S252x252x2_S252x252_n_01_01_2 : ScatterDims S384x384 S252x252x2 S252x252 where
  updateWindowDims := []
  insertedWindowDims := [0, 1]
  scatterDimsToOperandDims := [0, 1]
  indexVectorDim := 2
  wf := scatter_S384x384_S252x252x2_S252x252_n_01_01_2_wf

abbrev win0_0 : Pipeline.Window sig grid0 :=
  Pipeline.Window.ofSpec (Memref.whole main_v48) S16x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S16x384x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3x384x384 : Shape := ⟨4, ![64, 3, 384, 384]⟩
abbrev S21x21 : Shape := ⟨2, ![21, 21]⟩
abbrev S21 : Shape := ⟨1, ![21]⟩
abbrev S21x1 : Shape := ⟨2, ![21, 1]⟩
abbrev S_ : Shape := ⟨0, ![]⟩
abbrev S12 : Shape := ⟨1, ![12]⟩
abbrev S1x12 : Shape := ⟨2, ![1, 12]⟩
abbrev S21x12 : Shape := ⟨2, ![21, 12]⟩
abbrev S252 : Shape := ⟨1, ![252]⟩
abbrev S21x12x21 : Shape := ⟨3, ![21, 12, 21]⟩
abbrev S252x21 : Shape := ⟨2, ![252, 21]⟩
abbrev S252x21x12 : Shape := ⟨3, ![252, 21, 12]⟩
abbrev S252x252 : Shape := ⟨2, ![252, 252]⟩
abbrev S384x384 : Shape := ⟨2, ![384, 384]⟩
abbrev S252x1 : Shape := ⟨2, ![252, 1]⟩
abbrev S1x252 : Shape := ⟨2, ![1, 252]⟩
abbrev S252x252x1 : Shape := ⟨3, ![252, 252, 1]⟩
abbrev S252x252x2 : Shape := ⟨3, ![252, 252, 2]⟩
abbrev S1x1x384x384 : Shape := ⟨4, ![1, 1, 384, 384]⟩

abbrev nBuf : Space → Nat
  | .hbm => 62
  | .vmem => 0
  | .smem => 0
  | _ => 0

abbrev bufTy : (tb : Table) → Fin (tcTables nBuf tb) → BufTy
  | .hbm, ⟨0, _⟩ => ⟨S64x3x384x384, .f32⟩
  | .hbm, ⟨1, _⟩ => ⟨S21x21, .i32⟩
  | .hbm, ⟨2, _⟩ => ⟨S21, .i32⟩
  | .hbm, ⟨3, _⟩ => ⟨S21x1, .i32⟩
  | .hbm, ⟨4, _⟩ => ⟨S_, .i32⟩
  | .hbm, ⟨5, _⟩ => ⟨S21x1, .i32⟩
  | .hbm, ⟨6, _⟩ => ⟨S21x1, .i32⟩
  | .hbm, ⟨7, _⟩ => ⟨S_, .i32⟩
  | .hbm, ⟨8, _⟩ => ⟨S21x1, .i32⟩
  | .hbm, ⟨9, _⟩ => ⟨S21x1, .i32⟩
  | .hbm, ⟨10, _⟩ => ⟨S12, .i32⟩
  | .hbm, ⟨11, _⟩ => ⟨S1x12, .i32⟩
  | .hbm, ⟨12, _⟩ => ⟨S21x12, .i32⟩
  | .hbm, ⟨13, _⟩ => ⟨S21x12, .i32⟩
  | .hbm, ⟨14, _⟩ => ⟨S21x12, .i32⟩
  | .hbm, ⟨15, _⟩ => ⟨S252, .i32⟩
  | .hbm, ⟨16, _⟩ => ⟨S21, .i32⟩
  | .hbm, ⟨17, _⟩ => ⟨S21x1, .i32⟩
  | .hbm, ⟨18, _⟩ => ⟨S_, .i32⟩
  | .hbm, ⟨19, _⟩ => ⟨S21x1, .i32⟩
  | .hbm, ⟨20, _⟩ => ⟨S21x1, .i32⟩
  | .hbm, ⟨21, _⟩ => ⟨S_, .i32⟩
  | .hbm, ⟨22, _⟩ => ⟨S21x1, .i32⟩
  | .hbm, ⟨23, _⟩ => ⟨S21x1, .i32⟩
  | .hbm, ⟨24, _⟩ => ⟨S12, .i32⟩
  | .hbm, ⟨25, _⟩ => ⟨S1x12, .i32⟩
  | .hbm, ⟨26, _⟩ => ⟨S21x12, .i32⟩
  | .hbm, ⟨27, _⟩ => ⟨S21x12, .i32⟩
  | .hbm, ⟨28, _⟩ => ⟨S21x12, .i32⟩
  | .hbm, ⟨29, _⟩ => ⟨S252, .i32⟩
  | .hbm, ⟨30, _⟩ => ⟨S21x21, .f32⟩
  | .hbm, ⟨31, _⟩ => ⟨S21x12x21, .f32⟩
  | .hbm, ⟨32, _⟩ => ⟨S252x21, .f32⟩
  | .hbm, ⟨33, _⟩ => ⟨S252x21x12, .f32⟩
  | .hbm, ⟨34, _⟩ => ⟨S252x252, .f32⟩
  | .hbm, ⟨35, _⟩ => ⟨S_, .f32⟩
  | .hbm, ⟨36, _⟩ => ⟨S384x384, .f32⟩
  | .hbm, ⟨37, _⟩ => ⟨S252x1, .i32⟩
  | .hbm, ⟨38, _⟩ => ⟨S1x252, .i32⟩
  | .hbm, ⟨39, _⟩ => ⟨S_, .i32⟩
  | .hbm, ⟨40, _⟩ => ⟨S252x1, .i32⟩
  | .hbm, ⟨41, _⟩ => ⟨S252x1, .i1⟩
  | .hbm, ⟨42, _⟩ => ⟨S_, .i32⟩
  | .hbm, ⟨43, _⟩ => ⟨S252x1, .i32⟩
  | .hbm, ⟨44, _⟩ => ⟨S252x1, .i32⟩
  | .hbm, ⟨45, _⟩ => ⟨S252x1, .i32⟩
  | .hbm, ⟨46, _⟩ => ⟨S_, .i32⟩
  | .hbm, ⟨47, _⟩ => ⟨S1x252, .i32⟩
  | .hbm, ⟨48, _⟩ => ⟨S1x252, .i1⟩
  | .hbm, ⟨49, _⟩ => ⟨S_, .i32⟩
  | .hbm, ⟨50, _⟩ => ⟨S1x252, .i32⟩
  | .hbm, ⟨51, _⟩ => ⟨S1x252, .i32⟩
  | .hbm, ⟨52, _⟩ => ⟨S1x252, .i32⟩
  | .hbm, ⟨53, _⟩ => ⟨S252x252, .i32⟩
  | .hbm, ⟨54, _⟩ => ⟨S252x252, .i32⟩
  | .hbm, ⟨55, _⟩ => ⟨S252x252x1, .i32⟩
  | .hbm, ⟨56, _⟩ => ⟨S252x252x1, .i32⟩
  | .hbm, ⟨57, _⟩ => ⟨S252x252x2, .i32⟩
  | .hbm, ⟨58, _⟩ => ⟨S384x384, .f32⟩
  | .hbm, ⟨59, _⟩ => ⟨S1x1x384x384, .f32⟩
  | .hbm, ⟨60, _⟩ => ⟨S64x3x384x384, .f32⟩
  | .hbm, ⟨61, _⟩ => ⟨S64x3x384x384, .f32⟩
  | _, _ => ⟨S64x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_5 : Ref sig .tc := ⟨.hbm, 46, rfl⟩
abbrev main_v37 : Ref sig .tc := ⟨.hbm, 47, rfl⟩
abbrev main_v38 : Ref sig .tc := ⟨.hbm, 48, rfl⟩
abbrev main_c_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]

class Facts₀ : Prop where
  bcast_S21_S21x1_0 : S21.BroadcastsInDim S21x1 (![0] : Fin 1 → Fin S21x1.rank)
  bcast_S_S21x1 : S_.BroadcastsInDim S21x1 (![] : Fin 0 → Fin S21x1.rank)
  bcast_S12_S1x12_1 : S12.BroadcastsInDim S1x12 (![1] : Fin 1 → Fin S1x12.rank)
  bcast_S21x1_S21x12_0_1 : S21x1.BroadcastsInDim S21x12 (![0, 1] : Fin 2 → Fin S21x12.rank)
  bcast_S1x12_S21x12_0_1 : S1x12.BroadcastsInDim S21x12 (![0, 1] : Fin 2 → Fin S21x12.rank)
  shapeCasts_S21x12_S252 : S21x12.ShapeCasts S252
  bcast_S21x21_S21x12x21_0_2 : S21x21.BroadcastsInDim S21x12x21 (![0, 2] : Fin 2 → Fin S21x12x21.rank)
  shapeCasts_S21x12x21_S252x21 : S21x12x21.ShapeCasts S252x21
  bcast_S252x21_S252x21x12_0_1 : S252x21.BroadcastsInDim S252x21x12 (![0, 1] : Fin 2 → Fin S252x21x12.rank)
  shapeCasts_S252x21x12_S252x252 : S252x21x12.ShapeCasts S252x252
  bcast_S_S384x384 : S_.BroadcastsInDim S384x384 (![] : Fin 0 → Fin S384x384.rank)
  bcast_S252_S252x1_0 : S252.BroadcastsInDim S252x1 (![0] : Fin 1 → Fin S252x1.rank)
  bcast_S252_S1x252_1 : S252.BroadcastsInDim S1x252 (![1] : Fin 1 → Fin S1x252.rank)
  bcast_S_S252x1 : S_.BroadcastsInDim S252x1 (![] : Fin 0 → Fin S252x1.rank)
  bcast_S_S1x252 : S_.BroadcastsInDim S1x252 (![] : Fin 0 → Fin S1x252.rank)
  bcast_S252x1_S252x252_0_1 : S252x1.BroadcastsInDim S252x252 (![0, 1] : Fin 2 → Fin S252x252.rank)
  bcast_S1x252_S252x252_0_1 : S1x252.BroadcastsInDim S252x252 (![0, 1] : Fin 2 → Fin S252x252.rank)
  bcast_S252x252_S252x252x1_0_1 : S252x252.BroadcastsInDim S252x252x1 (![0, 1] : Fin 2 → Fin S252x252x1.rank)
  concatenates_S252x252x1_S252x252x1_S252x252x2_d2 : Shape.Concatenates [S252x252x1, S252x252x1] S252x252x2 2
  bcast_S384x384_S1x1x384x384_2_3 : S384x384.BroadcastsInDim S1x1x384x384 (![2, 3] : Fin 2 → Fin S1x1x384x384.rank)
  bcast_S1x1x384x384_S64x3x384x384_0_1_2_3 : S1x1x384x384.BroadcastsInDim S64x3x384x384 (![0, 1, 2, 3] : Fin 4 → Fin S64x3x384x384.rank)
  scatter_S384x384_S252x252x2_S252x252_n_01_01_2_wf : ScatterDims.WF S384x384 S252x252x2 S252x252 [] [0, 1] [0, 1] 2

variable [Facts₀]

def scatter_S384x384_S252x252x2_S252x252_n_01_01_2 : ScatterDims S384x384 S252x252x2 S252x252 where
  updateWindowDims := []
  insertedWindowDims := [0, 1]
  scatterDimsToOperandDims := [0, 1]
  indexVectorDim := 2
  wf := scatter_S384x384_S252x252x2_S252x252_n_01_01_2_wf

class Facts : Prop extends Facts₀ where

variable [Facts]
-- ==== Proof.MaskedProduct.lean ====
/-
  The function both programs compute, over the extended reals. Every one of the 64 · 3 image planes of
  `x : [64, 3, 384, 384]` is multiplied, entry by entry, by ONE `[384, 384]` mask:

      out[n, c, h, w] = x[n, c, h, w] · mask[h, w].

  One program works on the planes strung along a single axis, `[192, 384, 384]`, plane `3·n + c` being the plane
  `(n, c)`: there the product reads `out₃[p, h, w] = x₃[p, h, w] · mask[h, w]`. Re-laying `x` into planes, multiplying
  there and re-laying the result back is the four-axis product, because a re-laying keeps every element's row-major
  position and the last two coordinates `(h, w)` are the same in both layouts. No law of the extended reals is used:
  the two sides are the same product of the same two factors at every index.
-/
import Idealize.ShloMosaic.PureOps.Ideal
import Idealize.ShloMosaic.Lib.ValueIdx
import Idealize.ShloMosaic.Lib.Pipeline.Value

noncomputable section

namespace MaskedProduct

open Idealize.ShloMosaic Idealize.ShloMosaic.ValueIdx

/-- The images: 64 of them, 3 channels each, 384 × 384 pixels. -/
abbrev Img : Shape := ⟨4, ![64, 3, 384, 384]⟩
/-- The same 192 planes along one axis. -/
abbrev Planes : Shape := ⟨3, ![192, 384, 384]⟩
/-- One plane, the mask's shape. -/
abbrev Plane : Shape := ⟨2, ![384, 384]⟩

/-- Every plane of `x` times the mask: `x[n, c, h, w] · mask[h, w]`. -/
def product (x : FVec Ideal Img .f32) (mask : FVec Ideal Plane .f32) : FVec Ideal Img .f32 :=
  fun i => x i * mask (ix2 (i 2) (i 3))

/-- The same on planes strung along one axis: `x₃[p, h, w] · mask[h, w]`. -/
def planeProduct (x₃ : FVec Ideal Planes .f32) (mask : FVec Ideal Plane .f32) : FVec Ideal Planes .f32 :=
  fun j => x₃ j * mask (ix2 (j 1) (j 2))

/-- Re-lay the images into planes, multiply plane by plane, re-lay back: the four-axis product. The element at
    `(n, c, h, w)` sits at plane `3·n + c`, row `h`, column `w` — the same row-major position
    `((n·3 + c)·384 + h)·384 + w` — so both re-layings read the element they started from, and the mask is read at
    the same `(h, w)`. -/
theorem relay_planeProduct (x : FVec Ideal Img .f32) (mask : FVec Ideal Plane .f32)
    (h₁ : Img.ShapeCasts Planes) (h₂ : Planes.ShapeCasts Img) :
    shapeCast Img (planeProduct (shapeCast Planes x h₁) mask) h₂ = product x mask := by
  funext i
  have hn : (i 0).val < 64 := (i 0).isLt
  have hc : (i 1).val < 3 := (i 1).isLt
  have hk : (Planes.rowMajor (ix3 (⟨(i 0).val * 3 + (i 1).val, by omega⟩ : Fin 192) (i 2) (i 3))).val
      = (Img.rowMajor i).val := by
    rw [Shape.rowMajor_val_three, Shape.rowMajor_val_four]
    rfl
  rw [shapeCast_apply _ h₂ i _ hk]
  unfold planeProduct product
  rw [shapeCast_apply x h₁ _ i hk.symm]

end MaskedProduct

end
-- ==== Proof.ReferenceProduct.lean ====
/-
  The reference's result is the masked product. The reference builds the `[384, 384]` mask from the patch table on the
  host, views it as `[1, 1, 384, 384]`, repeats it over the 64 images and 3 channels, and multiplies `x` by it entry by
  entry. Both broadcasts only drop or repeat the leading coordinates, so at `(n, c, h, w)` the repeated mask reads the
  mask at `(h, w)` and the result is `x[n, c, h, w] · mask[h, w]`. The mask itself stays an unopened function of the
  patch table: the other program builds it by the same operations.
-/
import proofs.«109414_j9491877724175_2_alg».proof.Proof.Gen.ReferenceIdeal.Read
import proofs.«109414_j9491877724175_2_alg».proof.Proof.MaskedProduct

noncomputable section

namespace Cert.ReferenceIdeal.RefValue

open Idealize.ShloMosaic Idealize.ShloMosaic.ValueIdx Cert.ReferenceIdeal Cert.ReferenceIdeal.Read

/-- Through the two broadcasts the entry `(n, c, h, w)` reads the mask at `(h, w)`. -/
theorem mask_index (i : S64x3x384x384.Idx) : idx_main_v48 (idx_main_v49 i) = ix2 (i 2) (i 3) :=
  funext fun a => Fin.ext (by match a with | ⟨0, _⟩ => rfl | ⟨1, _⟩ => rfl)

/-- The reference's result, as a function of `x` and the patch table: every plane of `x` times the mask the host
    operations build from the table. -/
theorem result_eq [Facts] (x₀ : (⟨S64x3x384x384, .f32⟩ : BufTy).Contents (Elt Ideal))
    (x₁ : (⟨S21x21, .i32⟩ : BufTy).Contents (Elt Ideal)) :
    val_main_v50 (F := Ideal) x₀ x₁ = MaskedProduct.product x₀ (val_main_v47 (F := Ideal) x₁) := by
  funext i
  rw [val_main_v50_apply, val_main_v49_apply, val_main_v48_apply, mask_index]
  rfl

end Cert.ReferenceIdeal.RefValue

end
-- ==== Proof.BlockProduct.lean ====
/-
  What the kernel body stores at one grid point, read at one entry. The body loads a block of 16 planes
  `x₀ : [16, 384, 384]` and the whole mask `x₁ : [384, 384]`, views the mask as one plane `[1, 384, 384]`, repeats
  that plane 16 times and multiplies entry by entry. So the stored block holds, at plane `p`, row `h`, column `w`,

      x₀[p, h, w] · x₁[h, w]:

  the repeated mask does not depend on `p` (the broadcast reads plane 0 of the one-plane view, which is the mask
  itself), and the two shape casts of a block to its own shape change nothing.
-/
import proofs.«109414_j9491877724175_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.BlockProduct

open Idealize.ShloMosaic Idealize.ShloMosaic.ValueIdx Cert.KernelIdeal Cert.KernelIdeal.Gen

/-- The mask viewed as one plane and repeated over 16 planes, read at `(p, h, w)`, is the mask at `(h, w)`. -/
theorem repeated_mask_apply [Facts] (x₁ : Vec Ideal S384x384 .f32) (p : Fin 16) (h : Fin 384) (w : Fin 384) :
    broadcastTo S16x384x384 (shapeCast S1x384x384 x₁ Facts₀.shapeCasts_S384x384_S1x384x384)
      Facts₀.broadcasts_S1x384x384_S16x384x384 (ix3 p h w) = x₁ (ix2 h w) := by
  refine (broadcastTo_apply _ _ (ix3 p h w) (ix3 (0 : Fin 1) h w) ?_).trans ?_
  · intro a
    match a with
    | ⟨0, _⟩ => rfl
    | ⟨1, _⟩ => rfl
    | ⟨2, _⟩ => rfl
  · exact shapeCast_ab_1ab_apply x₁ _ 0 h w

/-- The body's stored value at `(p, h, w)`: the loaded block's entry times the mask's entry at `(h, w)`. -/
theorem pay_apply [Facts] (x₀ : Vec Ideal S16x384x384 .f32) (x₁ : Vec Ideal S384x384 .f32)
    (p : Fin 16) (h : Fin 384) (w : Fin 384) :
    k0_pay1 (F := Ideal) x₀ x₁ (ix3 p h w) = x₀ (ix3 p h w) * x₁ (ix2 h w) := by
  unfold k0_pay1
  rw [mulf_apply, shapeCast_self, shapeCast_self, repeated_mask_apply]

end Cert.KernelIdeal.BlockProduct

end
-- ==== Proof.RegionEntry.lean ====
/-
  What the kernel's two input arrays hold when the region is entered. Before the region the host operations
  (a) build the `[384, 384]` mask from the patch table — by the same operations, in the same order, as the reference
  does, so the array the region finds is the reference's mask as a function of the patch table, whatever that
  function is —, and (b) re-lay `x : [64, 3, 384, 384]` into its 192 planes `[192, 384, 384]`.
-/
import proofs.«109414_j9491877724175_2_alg».proof.Proof.Gen.KernelIdeal.Frame
import proofs.«109414_j9491877724175_2_alg».proof.Proof.Gen.ReferenceIdeal.Read
import Idealize.ShloMosaic.Lib.StableHlo.Run
import Idealize.ShloMosaic.PureOps.Ideal

set_option maxRecDepth 16384

noncomputable section

namespace Cert.KernelIdeal.RegionEntry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The planes the region finds: `x` re-laid, every element at its row-major position. -/
theorem planes_entry (c : Dev nD) :
    (V m c main_v48 : S192x384x384.Idx → EReal)
      = shapeCast S192x384x384 (m ((c : Thread nD τ).loc main_arg0)) Facts₀.shapeCasts_S64x3x384x384_S192x384x384 := by
  show StableHlo.after hostOps0 (fun b => m (c, b)) (Proc.devRef .tc main_v48) = _
  after_results_simp
  rfl

set_option maxHeartbeats 4000000 in
/-- The mask the region finds is the reference's mask of the same patch table: the two programs build it by the same
    host operations (index rows and columns `6 + 18·r + k`, the table's entries repeated 12 × 12, one scatter into a
    plane of ones), so the two terms agree operation by operation. -/
theorem mask_entry (c : Dev nD) :
    (V m c main_v47 : S384x384.Idx → EReal)
      = Cert.ReferenceIdeal.Read.val_main_v47 (F := Ideal) (m ((c : Thread nD τ).loc main_arg1)) := by
  show StableHlo.after hostOps0 (fun b => m (c, b)) (Proc.devRef .tc main_v47) = _
  after_results_simp
  rfl

end Cert.KernelIdeal.RegionEntry

end
-- ==== Proof.KernelValue.lean ====
/-
  The kernel's run, read as a value. The region works on the 192 planes of `x` in 12 blocks of 16 planes; at grid
  point `t` it loads planes `16·t … 16·t + 15` and the whole mask, and stores each loaded entry times the mask's entry
  at the same row and column. So what point `t` writes back is block `t` of ONE array, the plane-by-plane product
  `x₃[p, h, w] · mask[h, w]` of the two arrays the region found; the 12 blocks tile the 192 planes (plane `p` lies in
  block `p / 16`), so the output array ends holding that product everywhere. The one host operation after the region
  re-lays the planes back to `[64, 3, 384, 384]`, and with the region-entry contents written out — `x` re-laid into
  planes, the mask built from the patch table — the result is the four-axis masked product of the arguments.
-/
import proofs.«109414_j9491877724175_2_alg».proof.Proof.Gen.KernelIdeal.Frame
import proofs.«109414_j9491877724175_2_alg».proof.Proof.MaskedProduct
import proofs.«109414_j9491877724175_2_alg».proof.Proof.BlockProduct
import proofs.«109414_j9491877724175_2_alg».proof.Proof.RegionEntry
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Idealize.ShloMosaic.StableHlo
open Cert.KernelIdeal Cert.KernelIdeal.Gen Cert.KernelIdeal.RegionEntry

variable (m : (ℓ : Loc nD τ sig) → Buf (Elt Ideal) ℓ) (ρ : Dev nD → PrngReg)

/-- The 192 planes of `x` as the region finds them. -/
abbrev planes (c : Dev nD) : FVec Ideal S192x384x384 .f32 := V m c main_v48
/-- The mask as the region finds it. -/
abbrev maskIn (c : Dev nD) : FVec Ideal S384x384 .f32 := V m c main_v47

theorem zero_offsets₃ : (![0, 0, 0] : Fin 3 → Nat) = fun _ => 0 := funext fun a => by fin_cases a <;> rfl
theorem zero_offsets₂ : (![0, 0] : Fin 2 → Nat) = fun _ => 0 := funext fun a => by fin_cases a <;> rfl

/-- The printed index maps, decided over the 12 grid points: the block of planes read and the block written are both
    block `t` (and start at row 0, column 0); the mask's block is always the whole mask. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What grid point `t` writes back is block `t` of the plane-by-plane product of the arrays the region found. -/
theorem flushed_eq (c : Dev nD) (t : Fin cfg0.N) :
    (dats m 0 c).flushed 2 t = ((cfg0.win 2).blk t).view.read (Elt Ideal)
      (MaskedProduct.planeProduct (planes m c) (maskIn m c)) := by
  show (cfg0.win 2).cut (grid0.coords t) ((dats m 0 c).after 2 t) = _
  rw [after0_2]
  unfold out0_2
  rw [View.canon_unit_zero zero_offsets₃]
  simp only [View.ld_unit_zero (S := S16x384x384) zero_offsets₃, View.ld_unit_zero (S := S384x384) zero_offsets₂]
  obtain ⟨e0, e1, e2, e3, e4, e5, e6, e7⟩ := block_indices t
  funext j
  obtain ⟨p, h, w, rfl⟩ : ∃ (p : Fin 16) (h : Fin 384) (w : Fin 384), j = ix3 p h w := ⟨j 0, j 1, j 2, eq_ix3 j⟩
  show k0_pay1 (iblk m c 0 t) (iblk m c 1 t) (ix3 p h w)
    = MaskedProduct.planeProduct (planes m c) (maskIn m c) (((cfg0.win 2).blk t).view.emb (ix3 p h w))
  refine (BlockProduct.pay_apply _ _ p h w).trans ?_
  unfold MaskedProduct.planeProduct
  show planes m c (((cfg0.win 0).blk t).view.emb (ix3 p h w)) * maskIn m c (((cfg0.win 1).blk t).view.emb (ix2 h w))
    = planes m c (((cfg0.win 2).blk t).view.emb (ix3 p h w))
      * maskIn m c (ix2 (((cfg0.win 2).blk t).view.emb (ix3 p h w) 1) (((cfg0.win 2).blk t).view.emb (ix3 p h w) 2))
  have h0 : ((cfg0.win 0).blk t).view.emb (ix3 p h w) = ((cfg0.win 2).blk t).view.emb (ix3 p h w) := by
    funext a; apply Fin.ext
    match a with
    | ⟨0, _⟩ => show win0_0.index t (0 : Fin 3) * 16 + 1 * p.val = win0_2.index t (0 : Fin 3) * 16 + 1 * p.val; omega
    | ⟨1, _⟩ => show win0_0.index t (1 : Fin 3) * 384 + 1 * h.val = win0_2.index t (1 : Fin 3) * 384 + 1 * h.val; omega
    | ⟨2, _⟩ => show win0_0.index t (2 : Fin 3) * 384 + 1 * w.val = win0_2.index t (2 : Fin 3) * 384 + 1 * w.val; omega
  have h1 : ((cfg0.win 1).blk t).view.emb (ix2 h w)
      = ix2 (((cfg0.win 2).blk t).view.emb (ix3 p h w) 1) (((cfg0.win 2).blk t).view.emb (ix3 p h w) 2) := by
    funext a; apply Fin.ext
    match a with
    | ⟨0, _⟩ => show win0_1.index t (0 : Fin 2) * 384 + 1 * h.val = win0_2.index t (1 : Fin 3) * 384 + 1 * h.val; omega
    | ⟨1, _⟩ => show win0_1.index t (1 : Fin 2) * 384 + 1 * w.val = win0_2.index t (2 : Fin 3) * 384 + 1 * w.val; omega
  rw [h0, h1]
  rfl

/-- An index of the planes is in point `t`'s block iff each coordinate is in the block's range on its axis. -/
theorem mem_blk (t : Fin cfg0.N) (i : S192x384x384.Idx) :
    i ∈ ((cfg0.win 2).blk t).view.set ↔ ∀ a : Fin 3, win0_2.index t a * S16x384x384.size a ≤ (i a).val
      ∧ (i a).val < win0_2.index t a * S16x384x384.size a + S16x384x384.size a := by
  show i ∈ ((View.whole main_v49).slice (win0_2.rect t)).set ↔ _
  rw [View.set_slice_whole, Rect.mem_set_unit]
  exact Iff.rfl

/-- The 12 blocks of 16 planes tile the 192 planes: plane `p` is in block `p / 16`. -/
theorem cover (i : S192x384x384.Idx) :
    ∃ t : Fin cfg0.N, (cfg0.win 2).flush t = true ∧ i ∈ ((cfg0.win 2).blk t).view.set := by
  have hi0 : (i 0).val < 192 := (i 0).isLt
  have hi1 : (i 1).val < 384 := (i 1).isLt
  have hi2 : (i 2).val < 384 := (i 2).isLt
  have hN : (i 0).val / 16 < grid0.N := by rw [N_0]; omega
  obtain ⟨-, -, -, -, -, e5, e6, e7⟩ := block_indices ⟨(i 0).val / 16, hN⟩
  refine ⟨⟨(i 0).val / 16, hN⟩, flush0_2 _, ?_⟩
  rw [mem_blk]
  intro a
  match a with
  | ⟨0, _⟩ =>
    show win0_2.index ⟨(i 0).val / 16, hN⟩ (0 : Fin 3) * 16 ≤ (i 0).val
      ∧ (i 0).val < win0_2.index ⟨(i 0).val / 16, hN⟩ (0 : Fin 3) * 16 + 16
    rw [e5]; show (i 0).val / 16 * 16 ≤ (i 0).val ∧ (i 0).val < (i 0).val / 16 * 16 + 16; omega
  | ⟨1, _⟩ =>
    show win0_2.index ⟨(i 0).val / 16, hN⟩ (1 : Fin 3) * 384 ≤ (i 1).val
      ∧ (i 1).val < win0_2.index ⟨(i 0).val / 16, hN⟩ (1 : Fin 3) * 384 + 384
    rw [e6]; omega
  | ⟨2, _⟩ =>
    show win0_2.index ⟨(i 0).val / 16, hN⟩ (2 : Fin 3) * 384 ≤ (i 2).val
      ∧ (i 2).val < win0_2.index ⟨(i 0).val / 16, hN⟩ (2 : Fin 3) * 384 + 384
    rw [e7]; omega

/-- The output array after the region: the plane-by-plane product of the arrays the region found. -/
theorem planes_final (c : Dev nD) :
    (dats m 0 c).arrAt 2 cfg0.N = MaskedProduct.planeProduct (planes m c) (maskIn m c) :=
  (dats m 0 c).arrAt_eq_of_cover 2 _ (fun t _ => flushed_eq m c t) cover

/-- The program's result, after the re-laying that follows the region: the masked product of `x` and the mask of the
    patch table. -/
theorem result_eq (c : Dev nD) :
    Pipeline.afterTail₀ cfgs (dats m) 0 (V0 m) [hostOps1] c main_v50
      = MaskedProduct.product (m ((c : Thread nD τ).loc main_arg0))
          (Cert.ReferenceIdeal.Read.val_main_v47 (F := Ideal) (m ((c : Thread nD τ).loc main_arg1))) := by
  unfold Pipeline.afterTail₀
  show StableHlo.after hostOps1 _ (Proc.devRef .tc main_v50) = _
  after_results
  rw [show Pipeline.withArrays (cfgs 0).spec c (V0 m c) (fun w => (dats m 0 c).arrAt w (cfgs 0).N) (Proc.devRef .tc main_v49)
      = MaskedProduct.planeProduct (planes m c) (maskIn m c) from
    (Pipeline.withArrays_arr spec0 launch0.win.arr_inj c _ _ 2).trans (planes_final m c)]
  unfold planes maskIn
  rw [planes_entry, mask_entry]
  exact MaskedProduct.relay_planeProduct _ _ _ _

/-- The kernel's run re-posted: the result array at the masked product of the arguments, the arguments unchanged. -/
theorem run : θ_run defs (onTc (τ := τ) (main (F := Ideal))) ⟨m, fun _ => 0, ρ⟩ fun r => ∀ c : Dev nD,
      r.2.mem ((c : Thread nD τ).loc main_v50)
        = MaskedProduct.product (m ((c : Thread nD τ).loc main_arg0))
            (Cert.ReferenceIdeal.Read.val_main_v47 (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v50 (Pipeline.mem_restRefs_of main_v50 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelValue

end
-- ==== Proof.lean ====
/-
  The certificate of a masked multiply. Both programs build one `[384, 384]` mask from a `[21, 21]` patch table on the
  host — a plane of ones into which the table's entries, each repeated over a 12 × 12 patch, are scattered at rows and
  columns `6 + 18·r + k` — and multiply every one of the 64 · 3 planes of `x` by it, entry by entry:

      out[n, c, h, w] = x[n, c, h, w] · mask[h, w].

  The reference does it by broadcasting the mask over the leading two axes. The kernel re-lays `x` into 192 planes,
  multiplies 16 planes per grid point by the resident mask, and re-lays the result back. The mask is built by the same
  host operations in both programs, so it is carried through the proof as one unopened function of the patch table;
  what is proved is that each program's result is that mask times `x` at every index (Proof/MaskedProduct.lean states
  the function; Proof/ReferenceProduct.lean reads it off the reference's run; Proof/BlockProduct.lean,
  Proof/RegionEntry.lean and Proof/KernelValue.lean read it off the kernel's run). The two results are the same product
  of the same two extended reals at every index, so no law that needs finiteness is used and the precondition is never
  opened. The kernel has no idealization rewrites: `preserves` is trivially true.
-/
import proofs.«109414_j9491877724175_2_alg».proof.Defs
import proofs.«109414_j9491877724175_2_alg».proof.Proof.Gen.Kernel
import proofs.«109414_j9491877724175_2_alg».proof.Proof.Gen.Kernel.Skeleton
import proofs.«109414_j9491877724175_2_alg».proof.Proof.Gen.Kernel.Launch
import proofs.«109414_j9491877724175_2_alg».proof.Proof.Gen.Kernel.Points
import proofs.«109414_j9491877724175_2_alg».proof.Proof.Gen.Kernel.Frame
import proofs.«109414_j9491877724175_2_alg».proof.Proof.Gen.KernelIdeal
import proofs.«109414_j9491877724175_2_alg».proof.Proof.Gen.KernelIdeal.Skeleton
import proofs.«109414_j9491877724175_2_alg».proof.Proof.Gen.KernelIdeal.Launch
import proofs.«109414_j9491877724175_2_alg».proof.Proof.Gen.KernelIdeal.Points
import proofs.«109414_j9491877724175_2_alg».proof.Proof.Gen.KernelIdeal.Frame
import proofs.«109414_j9491877724175_2_alg».proof.Proof.Gen.ReferenceIdeal
import proofs.«109414_j9491877724175_2_alg».proof.Proof.Gen.ReferenceIdeal.Run
import proofs.«109414_j9491877724175_2_alg».proof.Proof.Gen.ReferenceIdeal.Read
import proofs.«109414_j9491877724175_2_alg».proof.Proof.Gen.Pre_finite_inputs
import proofs.«109414_j9491877724175_2_alg».proof.Proof.MaskedProduct
import proofs.«109414_j9491877724175_2_alg».proof.Proof.ReferenceProduct
import proofs.«109414_j9491877724175_2_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `x[n, c, h, w] · mask[h, w]` in the result array, the mask the same function of the patch
    table in both: the kernel by its run read plane by plane, the reference by its two broadcasts read at an index. -/
theorem algebraic : Cert.algebraic_KernelIdeal_ReferenceIdeal := by
  intro m ρ m' ρ' _ hagree
  refine ⟨fun c => MaskedProduct.product (m ((c.tc : Thread _ _).loc Cert.KernelIdeal.main_arg0))
      (Cert.ReferenceIdeal.Read.val_main_v47 (F := Ideal) (m ((c.tc : Thread _ _).loc Cert.KernelIdeal.main_arg1))),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v50_eq, Cert.ReferenceIdeal.RefValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
